-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x500 .f32) (main_arg1 : IVec S2x1600000 32) (main_arg2 : FVec F S500x64 .f32) (main_arg3 : FVec F S64 .f32) (main_arg4 : FVec F S64x3 .f32) (main_arg5 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg4
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg5 main_v13 main_v16
-- ==== Kernel.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x500 : Shape := ⟨2, ![2000, 500]⟩
abbrev S2000x64 : Shape := ⟨2, ![2000, 64]⟩
abbrev S1700000x64 : Shape := ⟨2, ![1700000, 64]⟩
abbrev S1x64 : Shape := ⟨2, ![1, 64]⟩
abbrev S100000x3 : Shape := ⟨2, ![100000, 3]⟩
abbrev S5000x64 : Shape := ⟨2, ![5000, 64]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 89
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x3, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x3, .f32⟩
  | .hbm, ⟨79, _⟩ => ⟨S1700000x1, .f32⟩
  | .hbm, ⟨80, _⟩ => ⟨S1700000x3, .f32⟩
  | .hbm, ⟨81, _⟩ => ⟨S1700000x3, .f32⟩
  | .hbm, ⟨82, _⟩ => ⟨S_, .f32⟩
  | .hbm, ⟨83, _⟩ => ⟨S100000x3, .f32⟩
  | .hbm, ⟨84, _⟩ => ⟨S1700000x1, .i32⟩
  | .hbm, ⟨85, _⟩ => ⟨S100000x3, .f32⟩
  | .hbm, ⟨86, _⟩ => ⟨S1x3, .f32⟩
  | .hbm, ⟨87, _⟩ => ⟨S100000x3, .f32⟩
  | .hbm, ⟨88, _⟩ => ⟨S100000x3, .f32⟩
  | .local _ .vmem, ⟨0, _⟩ => ⟨S2000x500, .f32⟩
  | .local _ .vmem, ⟨1, _⟩ => ⟨S2000x500, .f32⟩
  | .local _ .vmem, ⟨2, _⟩ => ⟨S500x64, .f32⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S64x3, .f32⟩
  | .local _ .vmem, ⟨8, _⟩ => ⟨S5000x3, .f32⟩
  | .local _ .vmem, ⟨9, _⟩ => ⟨S5000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x500_S500x64_S2000x64_1_0_0_1_n_n_wf : DotDims.WF S2000x500 S500x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x3_S5000x3_1_0_0_1_n_n_wf : DotDims.WF S5000x64 S64x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x3.size a ≤ S64x3.size a
  hwx1_1 : ∀ i : grid1.Coords, EltTy.bits .f32 = 32 ∨ (Rect.block (s := S64x3) S64x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S100000x3.size a
  hwx1_2 : ∀ i : grid1.Coords, EltTy.bits .f32 = 32 ∨ (Rect.block (s := S100000x3) S5000x3.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x64 : Shape := ⟨2, ![500, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 125
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x3, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x3, .f32⟩
  | .hbm, ⟨115, _⟩ => ⟨S1700000x1, .f32⟩
  | .hbm, ⟨116, _⟩ => ⟨S1700000x3, .f32⟩
  | .hbm, ⟨117, _⟩ => ⟨S1700000x3, .f32⟩
  | .hbm, ⟨118, _⟩ => ⟨S_, .f32⟩
  | .hbm, ⟨119, _⟩ => ⟨S100000x3, .f32⟩
  | .hbm, ⟨120, _⟩ => ⟨S1700000x1, .i32⟩
  | .hbm, ⟨121, _⟩ => ⟨S100000x3, .f32⟩
  | .hbm, ⟨122, _⟩ => ⟨S1x3, .f32⟩
  | .hbm, ⟨123, _⟩ => ⟨S100000x3, .f32⟩
  | .hbm, ⟨124, _⟩ => ⟨S100000x3, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x500_S500x64_S100000x64_1_0_0_1_n_n_wf : DotDims.WF S100000x500 S500x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x3_S100000x3_1_0_0_1_n_n_wf : DotDims.WF S100000x64 S64x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.KernelRun.lean ====
/-
  The idealized kernel program's run with EVERY buffer read back.

  The program is a chain of eight segments: three stretches of host operations, the first matrix-product region,
  two more stretches, the second region, and a last stretch.  The buffer contents at each boundary are a fold
  through the chain from the launch memory; the last one is `W8`.  Every weakly fair execution terminates, and in
  the final memory each unscoped buffer of a core holds what that fold says (`run_all`).  In particular the
  result buffer holds the fold's value there, and the six arguments are as launched (`run_result`).
-/
import proofs.«158897_j73323681677457_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every unscoped buffer of every core ends at the
    contents the fold through the eight segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run read at the result buffer and at the six arguments: the result holds the fold's value, the arguments
    are as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_all m ρ)

end Cert.KernelIdeal.Run

end
-- ==== Proof.Spec.lean ====
/-
  The graph-convolution network as ONE function of its six inputs, in the program's own host operations.

  With E = 1,600,000 edges and n = 100,000 nodes:
    src, dst   the two rows of the edge list, each followed by 0 … n − 1 (the self-loops)            [E + n]
    deg        the number of edges into each node: a scatter-add of ones at dst                        [n]
    dinv       deg^(-1/2) where deg > 0, else 0
    norm       dinv[src] · dinv[dst]                                                                   [E + n]
    layer1 h   relu( scatter-add at dst of h[src] · norm, plus the bias b1 ),  h = x · W1              [n, 64]
    layer2 h   scatter-add at dst of h[src] · norm, plus the bias b2,          h = layer1 · W2         [n, 3]
  A negative index is wrapped by adding n before a gather, as jnp indexing does.
  The two matrix products are left as parameters (`h`): the kernel computes them block by block in two pipelines,
  the reference by one host product each, and everything around them is these same operations in both programs.
-/
import proofs.«158897_j73323681677457_2_alg».proof.KernelIdeal

noncomputable section

namespace Cert.KernelIdeal.Spec

open Cert.KernelIdeal Idealize.ShloMosaic

variable {F : FTy → Type} [FloatOps F] [Facts₀]
open Facts₀

/-- Two index vectors laid end to end: E entries followed by n entries. -/
def cat (a : (⟨S1600000, .i32⟩ : BufTy).Contents (Elt F)) (b : (⟨S100000, .i32⟩ : BufTy).Contents (Elt F)) : (⟨S1700000, .i32⟩ : BufTy).Contents (Elt F) :=
  concatenate S1700000 0 [⟨S1600000, a⟩, ⟨S100000, b⟩] concatenates_S1600000_S100000_S1700000_d0

/-- The program's spelling of that concatenation, as a function of its two pieces, is `cat`. -/
theorem cat_fun : ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) = cat (F := F) := rfl

/-- Row 0 of the edge list (the sources) followed by the self-loop indices 0 … n − 1. -/
def src (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Row 1 of the edge list (the targets) followed by the self-loop indices 0 … n − 1. -/
def dst (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A gather's index column: negative indices wrapped by adding n. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The in-degree of every node, self-loops counted. -/
def deg (d : IVec S1700000 32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- deg^(-1/2) where the degree is positive, zero elsewhere. -/
def dinv (d : IVec S1700000 32) : FVec F S100000 .f32 :=
  select (cmpf .ogt (deg (F := F) d) (broadcastInDim S100000 ![] bcast_S_S100000 (constant (F := F) S_ .f32 0x00000000#32)))
    (Host.rsqrt (deg (F := F) d))
    (broadcastInDim S100000 ![] bcast_S_S100000 (id (constant (F := F) S_ .f32 0x00000000#32)))

/-- The symmetric normalisation of every edge. -/
def norm (s d : IVec S1700000 32) : FVec F S1700000 .f32 :=
  mulf (Host.gather gather_S100000_S1700000x1_S1700000_n_0_n_n_0_1_1 (dinv (F := F) d) (wrapCol s))
    (Host.gather gather_S100000_S1700000x1_S1700000_n_0_n_n_0_1_1 (dinv (F := F) d) (wrapCol d))

/-- The first layer after its matrix product `h`: gather, scale, scatter-add, bias, relu. -/
def layer1 (h : FVec F S100000x64 .f32) (s d : IVec S1700000 32) (n : FVec F S1700000 .f32) (b : FVec F S64 .f32) : FVec F S100000x64 .f32 :=
  maximumf
    (addf
      (Host.scatterAdd scatter_S100000x64_S1700000x1_S1700000x64_1_0_0_1
        (broadcastInDim S100000x64 ![] bcast_S_S100000x64 (constant (F := F) S_ .f32 0x00000000#32))
        (broadcastInDim S1700000x1 ![0] bcast_S1700000_S1700000x1_0 d)
        (mulf (Host.gather gather_S100000x64_S1700000x1_S1700000x64_1_0_n_n_0_1_164 h (wrapCol s))
          (broadcastInDim S1700000x64 ![0, 1] bcast_S1700000x1_S1700000x64_0_1 (broadcastInDim S1700000x1 ![0] bcast_S1700000_S1700000x1_0 n))))
      (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The second layer after its matrix product `h`: gather, scale, scatter-add, bias. -/
def layer2 (h : FVec F S100000x3 .f32) (s d : IVec S1700000 32) (n : FVec F S1700000 .f32) (b : FVec F S3 .f32) : FVec F S100000x3 .f32 :=
  addf
    (Host.scatterAdd scatter_S100000x3_S1700000x1_S1700000x3_1_0_0_1
      (broadcastInDim S100000x3 ![] bcast_S_S100000x3 (constant (F := F) S_ .f32 0x00000000#32))
      (broadcastInDim S1700000x1 ![0] bcast_S1700000_S1700000x1_0 d)
      (mulf (Host.gather gather_S100000x3_S1700000x1_S1700000x3_1_0_n_n_0_1_13 h (wrapCol s))
        (broadcastInDim S1700000x3 ![0, 1] bcast_S1700000x1_S1700000x3_0_1 (broadcastInDim S1700000x1 ![0] bcast_S1700000_S1700000x1_0 n))))
    (broadcastInDim S100000x3 ![0, 1] bcast_S1x3_S100000x3_0_1 (broadcastInDim S1x3 ![1] bcast_S3_S1x3_1 b))

/-- The first layer's matrix product x · W1, as one host product. -/
def prod1 (x : FVec F S100000x500 .f32) (w : FVec F S500x64 .f32) : FVec F S100000x64 .f32 :=
  Host.dotGeneral (DotDims.plain 100000 500 64) none x w

/-- The second layer's matrix product h · W2, as one host product. -/
def prod2 (h : FVec F S100000x64 .f32) (w : FVec F S64x3 .f32) : FVec F S100000x3 .f32 :=
  Host.dotGeneral (DotDims.plain 100000 64 3) none h w

/-- THE NETWORK: both layers over the one edge normalisation. -/
def out (x : FVec F S100000x500 .f32) (e : IVec S2x1600000 32) (w1 : FVec F S500x64 .f32) (b1 : FVec F S64 .f32)
    (w2 : FVec F S64x3 .f32) (b2 : FVec F S3 .f32) : FVec F S100000x3 .f32 :=
  layer2 (prod2 (layer1 (prod1 x w1) (src e) (dst e) (norm (F := F) (src e) (dst e)) b1) w2)
    (src e) (dst e) (norm (F := F) (src e) (dst e)) b2

end Cert.KernelIdeal.Spec

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.Region0.lean ====
/-
  Region 0: what the first matrix-product pipeline leaves in its output array.

  The grid has 50 points.  Point t stages rows 2000·t … 2000·t + 1999 of the [100000, 500] left operand and the whole
  [500, 64] right operand, multiplies them (the roundings to bf16 are the identity on the extended reals, and the
  accumulator is the zero splat), and writes the [2000, 64] product back as rows 2000·t … 2000·t + 1999 of the output.
  Entry (p, q) of that block is the sum over k of x[2000·t + p, k] · w[k, q], which is entry (2000·t + p, q) of the whole
  product x · w.  The 50 blocks tile the output, so the output array ends holding x · w — whatever the buffers
  held when the region was entered (`V`).
-/
import proofs.«158897_j73323681677457_2_alg».proof.Proof.Gen.KernelIdeal.Frame
import proofs.«158897_j73323681677457_2_alg».proof.Proof.LibDotRows
import proofs.«158897_j73323681677457_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value, entry (p, q), when its left block is rows r0 … r0 + 1999 of x: the entry (r0 + p, q) of
    the whole product. -/
theorem pay_apply (x : FVec Ideal S100000x500 .f32) (w : FVec Ideal S500x64 .f32) (xb : FVec Ideal S2000x500 .f32)
    (r0 : Nat) (p : Fin 2000) (q : Fin 64) (hp : r0 + p.val < 100000)
    (hx : ∀ k : Fin 500, xb (ix2 p k) = x (ix2 ⟨r0 + p.val, hp⟩ k)) :
    k0_pay1 (F := Ideal) xb w (ix2 p q) = Spec.prod1 (F := Ideal) x w (ix2 ⟨r0 + p.val, hp⟩ q) := by
  unfold k0_pay1 Spec.prod1
  exact Cert.Lib.DotRows.matmul_rows x w xb r0 p q hp hx

/-- The index maps over the grid: the left operand's and the output's blocks move down the rows with the point, the
    right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, entry (p, k), is entry (2000·t + p, k) of the array. -/
theorem left_block (c : Dev nD) (t : Fin cfg0.N) (p : Fin 2000) (k : Fin 500) (hp : t.val * 2000 + p.val < 100000) :
    (iblk0 V c 0 t : FVec Ideal S2000x500 .f32) (ix2 p k)
      = (V c main_arg0 : S100000x500.Idx → Elt Ideal .f32) (ix2 ⟨t.val * 2000 + p.val, hp⟩ k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = t.val * 2000 + p.val; rw [e0]; omega
  | ⟨1, _⟩ => show win0_0.index t (1 : Fin 2) * 500 + 1 * k.val = k.val; rw [e1]; omega

/-- The right operand's block at any point is the whole array. -/
theorem right_block (c : Dev nD) (t : Fin cfg0.N) :
    (iblk0 V c 1 t : FVec Ideal S500x64 .f32) = (V c main_arg2 : S500x64.Idx → Elt Ideal .f32) := by
  obtain ⟨-, -, e2, e3, -⟩ := idx_facts t
  funext y
  unfold iblk0
  rw [View.read_apply]
  show V c main_arg2 _ = V c main_arg2 _
  refine congrArg (V c main_arg2) ?_
  funext a
  apply Fin.ext
  match a with
  | ⟨0, _⟩ => show win0_1.index t (0 : Fin 2) * 500 + 1 * (y 0).val = (y 0).val; rw [e2]; omega
  | ⟨1, _⟩ => show win0_1.index t (1 : Fin 2) * 64 + 1 * (y 1).val = (y 1).val; rw [e3]; omega

/-- What point t writes back is block t of the whole product of the arrays the region found. -/
theorem flushed_eq (c : Dev nD) (t : Fin cfg0.N) :
    (dat0 V c).flushed 2 t = ((cfg0.win 2).blk t).view.read (Elt Ideal) (Spec.prod1 (F := Ideal) (V c main_arg0) (V c main_arg2)) := by
  have hN : cfg0.N = 50 := N_0
  have ht : t.val < 50 := hN ▸ t.isLt
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x500) hz, View.ld_unit_zero (S := S500x64) hz]
  rw [right_block V c t]
  funext j
  obtain ⟨p, q, rfl⟩ : ∃ (p : Fin 2000) (q : Fin 64), j = ix2 p q := ⟨j 0, j 1, eq_ix2 j⟩
  have hp : t.val * 2000 + p.val < 100000 := by have := p.isLt; omega
  rw [View.read_apply]
  have hemb : ((cfg0.win 2).blk t).view.emb (ix2 p q) = (ix2 ⟨t.val * 2000 + p.val, hp⟩ q : S100000x64.Idx) := by
    funext a
    apply Fin.ext
    match a with
    | ⟨0, _⟩ => show win0_2.index t (0 : Fin 2) * 2000 + 1 * p.val = t.val * 2000 + p.val; rw [e4]; omega
    | ⟨1, _⟩ => show win0_2.index t (1 : Fin 2) * 64 + 1 * q.val = q.val; rw [e5]; omega
  rw [hemb]
  exact pay_apply (V c main_arg0) (V c main_arg2) (iblk0 V c 0 t) (t.val * 2000) p q hp (fun k => left_block V c t p k hp)

/-- An index of the output array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The output array after the region: the whole product of the two operand arrays as the region found them.  Row r
    of the output lies in the block of point r / 2000. -/
theorem final (c : Dev nD) : (dat0 V c).arrAt 2 cfg0.N = Spec.prod1 (F := Ideal) (V c main_arg0) (V c main_arg2) :=
  (dat0 V c).arrAt_eq_of_cover 2 (Spec.prod1 (F := Ideal) (V c main_arg0) (V c main_arg2)) (fun t _ => flushed_eq V c t) fun i => by
    have hN : cfg0.N = 50 := N_0
    have hi0 : (i 0 : Nat) < 100000 := (i 0).isLt
    have hi1 : (i 1 : Nat) < 64 := (i 1).isLt
    obtain ⟨t, ht⟩ : ∃ t : Fin cfg0.N, t.val = (i 0 : Nat) / 2000 := ⟨⟨(i 0 : Nat) / 2000, by rw [hN]; omega⟩, rfl⟩
    obtain ⟨-, -, -, -, e4, e5⟩ := idx_facts t
    refine ⟨t, flush0_2 t, ?_⟩
    rw [mem_blk]
    intro a
    match a with
    | ⟨0, _⟩ => show win0_2.index t (0 : Fin 2) * 2000 ≤ (i 0 : Nat) ∧ (i 0 : Nat) < win0_2.index t (0 : Fin 2) * 2000 + 2000; rw [e4, ht]; omega
    | ⟨1, _⟩ => show win0_2.index t (1 : Fin 2) * 64 ≤ (i 1 : Nat) ∧ (i 1 : Nat) < win0_2.index t (1 : Fin 2) * 64 + 64; rw [e5]; omega

end Cert.KernelIdeal.Region0

end
-- ==== Proof.Region1.lean ====
/-
  Region 1: what the second matrix-product pipeline leaves in its output array.

  The grid has 20 points.  Point t stages rows 5000·t … 5000·t + 4999 of the [100000, 64] left operand and the whole
  [64, 3] right operand, multiplies them (the roundings to bf16 are the identity on the extended reals, and the
  accumulator is the zero splat), and writes the [5000, 3] product back as rows 5000·t … 5000·t + 4999 of the output.
  Entry (p, q) of that block is the sum over k of x[5000·t + p, k] · w[k, q], which is entry (5000·t + p, q) of the whole
  product x · w.  The 20 blocks tile the output, so the output array ends holding x · w — whatever the buffers
  held when the region was entered (`V`).
-/
import proofs.«158897_j73323681677457_2_alg».proof.Proof.Gen.KernelIdeal.Frame
import proofs.«158897_j73323681677457_2_alg».proof.Proof.LibDotRows
import proofs.«158897_j73323681677457_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value, entry (p, q), when its left block is rows r0 … r0 + 4999 of x: the entry (r0 + p, q) of
    the whole product. -/
theorem pay_apply (x : FVec Ideal S100000x64 .f32) (w : FVec Ideal S64x3 .f32) (xb : FVec Ideal S5000x64 .f32)
    (r0 : Nat) (p : Fin 5000) (q : Fin 3) (hp : r0 + p.val < 100000)
    (hx : ∀ k : Fin 64, xb (ix2 p k) = x (ix2 ⟨r0 + p.val, hp⟩ k)) :
    k1_pay1 (F := Ideal) xb w (ix2 p q) = Spec.prod2 (F := Ideal) x w (ix2 ⟨r0 + p.val, hp⟩ q) := by
  unfold k1_pay1 Spec.prod2
  rw [shapeCast_self]
  exact Cert.Lib.DotRows.matmul_rows x w xb r0 p q hp hx

/-- The index maps over the grid: the left operand's and the output's blocks move down the rows with the point, the
    right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, entry (p, k), is entry (5000·t + p, k) of the array. -/
theorem left_block (c : Dev nD) (t : Fin cfg1.N) (p : Fin 5000) (k : Fin 64) (hp : t.val * 5000 + p.val < 100000) :
    (iblk1 V c 0 t : FVec Ideal S5000x64 .f32) (ix2 p k)
      = (V c main_v47 : S100000x64.Idx → Elt Ideal .f32) (ix2 ⟨t.val * 5000 + p.val, hp⟩ k) := by
  obtain ⟨e0, e1, -⟩ := idx_facts t
  unfold iblk1
  rw [View.read_apply]
  show V c main_v47 _ = V c main_v47 _
  refine congrArg (V c main_v47) ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- The right operand's block at any point is the whole array. -/
theorem right_block (c : Dev nD) (t : Fin cfg1.N) :
    (iblk1 V c 1 t : FVec Ideal S64x3 .f32) = (V c main_arg4 : S64x3.Idx → Elt Ideal .f32) := by
  obtain ⟨-, -, e2, e3, -⟩ := idx_facts t
  funext y
  unfold iblk1
  rw [View.read_apply]
  show V c main_arg4 _ = V c main_arg4 _
  refine congrArg (V c main_arg4) ?_
  funext a
  apply Fin.ext
  match a with
  | ⟨0, _⟩ => show win1_1.index t (0 : Fin 2) * 64 + 1 * (y 0).val = (y 0).val; rw [e2]; omega
  | ⟨1, _⟩ => show win1_1.index t (1 : Fin 2) * 3 + 1 * (y 1).val = (y 1).val; rw [e3]; omega

/-- What point t writes back is block t of the whole product of the arrays the region found. -/
theorem flushed_eq (c : Dev nD) (t : Fin cfg1.N) :
    (dat1 V c).flushed 2 t = ((cfg1.win 2).blk t).view.read (Elt Ideal) (Spec.prod2 (F := Ideal) (V c main_v47) (V c main_arg4)) := by
  have hN : cfg1.N = 20 := N_1
  have ht : t.val < 20 := hN ▸ t.isLt
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S5000x64) hz, View.ld_unit_zero (S := S64x3) hz]
  rw [right_block V c t]
  funext j
  obtain ⟨p, q, rfl⟩ : ∃ (p : Fin 5000) (q : Fin 3), j = ix2 p q := ⟨j 0, j 1, eq_ix2 j⟩
  have hp : t.val * 5000 + p.val < 100000 := by have := p.isLt; omega
  rw [View.read_apply]
  have hemb : ((cfg1.win 2).blk t).view.emb (ix2 p q) = (ix2 ⟨t.val * 5000 + p.val, hp⟩ q : S100000x3.Idx) := by
    funext a
    apply Fin.ext
    match a with
    | ⟨0, _⟩ => show win1_2.index t (0 : Fin 2) * 5000 + 1 * p.val = t.val * 5000 + p.val; rw [e4]; omega
    | ⟨1, _⟩ => show win1_2.index t (1 : Fin 2) * 3 + 1 * q.val = q.val; rw [e5]; omega
  rw [hemb]
  exact pay_apply (V c main_v47) (V c main_arg4) (iblk1 V c 0 t) (t.val * 5000) p q hp (fun k => left_block V c t p k hp)

/-- An index of the output array is in point t's block iff each coordinate is in the block's range on its axis. -/
theorem mem_blk (t : Fin cfg1.N) (i : S100000x3.Idx) :
    i ∈ ((cfg1.win 2).blk t).view.set ↔ ∀ a : Fin 2, win1_2.index t a * S5000x3.size a ≤ (i a).val ∧ (i a).val < win1_2.index t a * S5000x3.size a + S5000x3.size a := by
  show i ∈ ((View.whole main_v48).slice (win1_2.rect t)).set ↔ _
  rw [View.set_slice_whole, Rect.mem_set_unit]
  exact Iff.rfl

/-- The output array after the region: the whole product of the two operand arrays as the region found them.  Row r
    of the output lies in the block of point r / 5000. -/
theorem final (c : Dev nD) : (dat1 V c).arrAt 2 cfg1.N = Spec.prod2 (F := Ideal) (V c main_v47) (V c main_arg4) :=
  (dat1 V c).arrAt_eq_of_cover 2 (Spec.prod2 (F := Ideal) (V c main_v47) (V c main_arg4)) (fun t _ => flushed_eq V c t) fun i => by
    have hN : cfg1.N = 20 := N_1
    have hi0 : (i 0 : Nat) < 100000 := (i 0).isLt
    have hi1 : (i 1 : Nat) < 3 := (i 1).isLt
    obtain ⟨t, ht⟩ : ∃ t : Fin cfg1.N, t.val = (i 0 : Nat) / 5000 := ⟨⟨(i 0 : Nat) / 5000, by rw [hN]; omega⟩, rfl⟩
    obtain ⟨-, -, -, -, e4, e5⟩ := idx_facts t
    refine ⟨t, flush1_2 t, ?_⟩
    rw [mem_blk]
    intro a
    match a with
    | ⟨0, _⟩ => show win1_2.index t (0 : Fin 2) * 5000 ≤ (i 0 : Nat) ∧ (i 0 : Nat) < win1_2.index t (0 : Fin 2) * 5000 + 5000; rw [e4, ht]; omega
    | ⟨1, _⟩ => show win1_2.index t (1 : Fin 2) * 3 ≤ (i 1 : Nat) ∧ (i 1 : Nat) < win1_2.index t (1 : Fin 2) * 3 + 3; rw [e5]; omega

end Cert.KernelIdeal.Region1

end
-- ==== Proof.Glue.lean ====
/-
  The host operations around the two matrix-product regions, read as functions.

  The program's buffer contents at its segment boundaries are a fold of host operations and region write-backs from
  the launch memory.  Read stretch by stretch, from ANY contents `W` at the stretch's start:
    * the stretch before the first region leaves the source and target index vectors, and the edge normalisation
      computed from them, in three buffers, and does not touch the arguments;
    * the stretch between the regions leaves, in the second region's left operand, the first layer applied to the
      first region's output; the index vectors, the normalisation and the arguments pass through;
    * the stretch after the second region leaves, in the result buffer, the second layer applied to the second
      region's output.
  A region overwrites its output array with the matrix product of its two operand arrays and leaves every other
  buffer alone.  Composing the five steps, the result buffer ends holding the network `Spec.out` of the six
  arguments' launch contents.
-/
import proofs.«158897_j73323681677457_2_alg».proof.Proof.Gen.KernelIdeal.Frame
import proofs.«158897_j73323681677457_2_alg».proof.Proof.Spec
import proofs.«158897_j73323681677457_2_alg».proof.Proof.Region0
import proofs.«158897_j73323681677457_2_alg».proof.Proof.Region1
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

section Stretches

variable {F : FTy → Type} [FloatOps F] (W : Valuation τ sig (Elt F))

/-! ## Before the first region -/

set_option maxHeartbeats 8000000 in
theorem pre_src : after hostOps0_2 (after hostOps0_1 (after hostOps0 W)) (Proc.devRef .tc main_v5) = Spec.src (W (Proc.devRef .tc main_arg1)) := by
  dsimp only [hostOps0, hostOps0_1, hostOps0_2]
  simp only [Spec.cat_fun]
  after_results_simp <;> rfl

set_option maxHeartbeats 8000000 in
theorem pre_dst : after hostOps0_2 (after hostOps0_1 (after hostOps0 W)) (Proc.devRef .tc main_v6) = Spec.dst (W (Proc.devRef .tc main_arg1)) := by
  dsimp only [hostOps0, hostOps0_1, hostOps0_2]
  simp only [Spec.cat_fun]
  after_results_simp <;> rfl

set_option maxHeartbeats 8000000 in
theorem pre_norm : after hostOps0_2 (after hostOps0_1 (after hostOps0 W)) (Proc.devRef .tc main_v29)
    = Spec.norm (F := F) (Spec.src (W (Proc.devRef .tc main_arg1))) (Spec.dst (W (Proc.devRef .tc main_arg1))) := by
  dsimp only [hostOps0, hostOps0_1, hostOps0_2]
  simp only [Spec.cat_fun]
  after_results_simp <;> rfl

set_option maxHeartbeats 8000000 in
theorem pre_arg0 : after hostOps0_2 (after hostOps0_1 (after hostOps0 W)) (Proc.devRef .tc main_arg0) = W (Proc.devRef .tc main_arg0) := by
  dsimp only [hostOps0, hostOps0_1, hostOps0_2]
  simp only [Spec.cat_fun]
  after_results_simp <;> rfl

set_option maxHeartbeats 8000000 in
theorem pre_arg2 : after hostOps0_2 (after hostOps0_1 (after hostOps0 W)) (Proc.devRef .tc main_arg2) = W (Proc.devRef .tc main_arg2) := by
  dsimp only [hostOps0, hostOps0_1, hostOps0_2]
  simp only [Spec.cat_fun]
  after_results_simp <;> rfl

set_option maxHeartbeats 8000000 in
theorem pre_arg3 : after hostOps0_2 (after hostOps0_1 (after hostOps0 W)) (Proc.devRef .tc main_arg3) = W (Proc.devRef .tc main_arg3) := by
  dsimp only [hostOps0, hostOps0_1, hostOps0_2]
  simp only [Spec.cat_fun]
  after_results_simp <;> rfl

set_option maxHeartbeats 8000000 in
theorem pre_arg4 : after hostOps0_2 (after hostOps0_1 (after hostOps0 W)) (Proc.devRef .tc main_arg4) = W (Proc.devRef .tc main_arg4) := by
  dsimp only [hostOps0, hostOps0_1, hostOps0_2]
  simp only [Spec.cat_fun]
  after_results_simp <;> rfl

set_option maxHeartbeats 8000000 in
theorem pre_arg5 : after hostOps0_2 (after hostOps0_1 (after hostOps0 W)) (Proc.devRef .tc main_arg5) = W (Proc.devRef .tc main_arg5) := by
  dsimp only [hostOps0, hostOps0_1, hostOps0_2]
  simp only [Spec.cat_fun]
  after_results_simp <;> rfl

/-! ## Between the regions -/

set_option maxHeartbeats 8000000 in
theorem mid_layer1 : after hostOps1_1 (after hostOps1 W) (Proc.devRef .tc main_v47)
    = Spec.layer1 (W (Proc.devRef .tc main_v30)) (W (Proc.devRef .tc main_v5)) (W (Proc.devRef .tc main_v6)) (W (Proc.devRef .tc main_v29)) (W (Proc.devRef .tc main_arg3)) := by
  dsimp only [hostOps1, hostOps1_1]
  after_results_simp <;> rfl

set_option maxHeartbeats 8000000 in
theorem mid_v5 : after hostOps1_1 (after hostOps1 W) (Proc.devRef .tc main_v5) = W (Proc.devRef .tc main_v5) := by
  dsimp only [hostOps1, hostOps1_1]
  after_results_simp <;> rfl

set_option maxHeartbeats 8000000 in
theorem mid_v6 : after hostOps1_1 (after hostOps1 W) (Proc.devRef .tc main_v6) = W (Proc.devRef .tc main_v6) := by
  dsimp only [hostOps1, hostOps1_1]
  after_results_simp <;> rfl

set_option maxHeartbeats 8000000 in
theorem mid_v29 : after hostOps1_1 (after hostOps1 W) (Proc.devRef .tc main_v29) = W (Proc.devRef .tc main_v29) := by
  dsimp only [hostOps1, hostOps1_1]
  after_results_simp <;> rfl

set_option maxHeartbeats 8000000 in
theorem mid_arg4 : after hostOps1_1 (after hostOps1 W) (Proc.devRef .tc main_arg4) = W (Proc.devRef .tc main_arg4) := by
  dsimp only [hostOps1, hostOps1_1]
  after_results_simp <;> rfl

set_option maxHeartbeats 8000000 in
theorem mid_arg5 : after hostOps1_1 (after hostOps1 W) (Proc.devRef .tc main_arg5) = W (Proc.devRef .tc main_arg5) := by
  dsimp only [hostOps1, hostOps1_1]
  after_results_simp <;> rfl

/-! ## After the second region -/

set_option maxHeartbeats 8000000 in
theorem post_layer2 : after hostOps2 W (Proc.devRef .tc main_v64)
    = Spec.layer2 (W (Proc.devRef .tc main_v48)) (W (Proc.devRef .tc main_v5)) (W (Proc.devRef .tc main_v6)) (W (Proc.devRef .tc main_v29)) (W (Proc.devRef .tc main_arg5)) := by
  dsimp only [hostOps2]
  after_results_simp <;> rfl

end Stretches

/-! ## The fold, boundary by boundary -/

variable (m : (ℓ : Loc nD τ sig) → Buf (Elt Ideal) ℓ) (ρ : Dev nD → PrngReg)

set_option maxHeartbeats 16000000 in
/-- The result buffer at the last boundary holds the network of the six arguments' launch contents. -/
theorem result (c : Dev nD) : W8 m ρ c (Proc.devRef .tc main_v64)
    = Spec.out (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  -- at the first region's entry
  have x3 : W3 m ρ c (Proc.devRef .tc main_arg0) = m ((c.tc : Thread nD τ).loc main_arg0) := pre_arg0 (W0 m ρ c)
  have w3 : W3 m ρ c (Proc.devRef .tc main_arg2) = m ((c.tc : Thread nD τ).loc main_arg2) := pre_arg2 (W0 m ρ c)
  have s3 : W3 m ρ c (Proc.devRef .tc main_v5) = Spec.src (m ((c.tc : Thread nD τ).loc main_arg1)) := pre_src (W0 m ρ c)
  have d3 : W3 m ρ c (Proc.devRef .tc main_v6) = Spec.dst (m ((c.tc : Thread nD τ).loc main_arg1)) := pre_dst (W0 m ρ c)
  have n3 : W3 m ρ c (Proc.devRef .tc main_v29) = Spec.norm (F := Ideal) (Spec.src (m ((c.tc : Thread nD τ).loc main_arg1))) (Spec.dst (m ((c.tc : Thread nD τ).loc main_arg1))) := pre_norm (W0 m ρ c)
  have a3 : W3 m ρ c (Proc.devRef .tc main_arg3) = m ((c.tc : Thread nD τ).loc main_arg3) := pre_arg3 (W0 m ρ c)
  have a4 : W3 m ρ c (Proc.devRef .tc main_arg4) = m ((c.tc : Thread nD τ).loc main_arg4) := pre_arg4 (W0 m ρ c)
  have a5 : W3 m ρ c (Proc.devRef .tc main_arg5) = m ((c.tc : Thread nD τ).loc main_arg5) := pre_arg5 (W0 m ρ c)
  -- at the first region's exit: its output array is the product, the rest is as entered
  have h4 : W4 m ρ c (Proc.devRef .tc main_v30) = Spec.prod1 (F := Ideal) (m ((c.tc : Thread nD τ).loc main_arg0)) (m ((c.tc : Thread nD τ).loc main_arg2)) :=
    (W4_arr m ρ c 2).trans ((Region0.final (V3 m ρ) c).trans (congrArg₂ (Spec.prod1 (F := Ideal)) x3 w3))
  have s4 := (W4_of_ne m ρ c main_v5 (by decide)).trans s3
  have d4 := (W4_of_ne m ρ c main_v6 (by decide)).trans d3
  have n4 := (W4_of_ne m ρ c main_v29 (by decide)).trans n3
  have b4 := (W4_of_ne m ρ c main_arg3 (by decide)).trans a3
  have u4 := (W4_of_ne m ρ c main_arg4 (by decide)).trans a4
  have v4 := (W4_of_ne m ρ c main_arg5 (by decide)).trans a5
  -- at the second region's entry
  have h6 : W6 m ρ c (Proc.devRef .tc main_v47) = Spec.layer1 (F := Ideal) (Spec.prod1 (F := Ideal) (m ((c.tc : Thread nD τ).loc main_arg0)) (m ((c.tc : Thread nD τ).loc main_arg2)))
      (Spec.src (m ((c.tc : Thread nD τ).loc main_arg1))) (Spec.dst (m ((c.tc : Thread nD τ).loc main_arg1)))
      (Spec.norm (F := Ideal) (Spec.src (m ((c.tc : Thread nD τ).loc main_arg1))) (Spec.dst (m ((c.tc : Thread nD τ).loc main_arg1))))
      (m ((c.tc : Thread nD τ).loc main_arg3)) :=
    (mid_layer1 (W4 m ρ c)).trans (by rw [h4, s4, d4, n4, b4])
  have s6 := (mid_v5 (W4 m ρ c)).trans s4
  have d6 := (mid_v6 (W4 m ρ c)).trans d4
  have n6 := (mid_v29 (W4 m ρ c)).trans n4
  have u6 := (mid_arg4 (W4 m ρ c)).trans u4
  have v6 := (mid_arg5 (W4 m ρ c)).trans v4
  -- at the second region's exit
  have h7 := (W7_arr m ρ c 2).trans ((Region1.final (V6 m ρ) c).trans (congrArg₂ (Spec.prod2 (F := Ideal)) h6 u6))
  have s7 := (W7_of_ne m ρ c main_v5 (by decide)).trans s6
  have d7 := (W7_of_ne m ρ c main_v6 (by decide)).trans d6
  have n7 := (W7_of_ne m ρ c main_v29 (by decide)).trans n6
  have v7 := (W7_of_ne m ρ c main_arg5 (by decide)).trans v6
  -- the last stretch
  exact (post_layer2 (W7 m ρ c)).trans (by rw [h7, s7, d7, n7, v7]; rfl)

end Cert.KernelIdeal.Glue

end
-- ==== Proof.RefValue.lean ====
/-
  The reference program's result is the network `Spec.out` of its six arguments.

  The reference's @main is a straight line of 119 host operations; what its result buffer holds after the run is the
  fold of those operations from the launch contents, read at the result buffer.  Reading the fold back operation by
  operation gives a term in the arguments alone: the edge list is sliced, concatenated with the self-loops, the
  degrees are scattered and turned into the edge normalisation (the reference does this once per layer, with the
  same operations on the same edge list, so both copies are the one `Spec.norm`), and each layer is a host matrix
  product followed by gather, scale, scatter-add and bias (the first also by relu).  That term is `Spec.out`
  letter for letter, the two programs' shape and dimension-number records being the same literals.
-/
import proofs.«158897_j73323681677457_2_alg».proof.Proof.RefRun
import proofs.«158897_j73323681677457_2_alg».proof.Proof.Gen.KernelIdeal
import proofs.«158897_j73323681677457_2_alg».proof.Proof.Spec
import Idealize.ShloMosaic.Lib.StableHlo.Run
import Idealize.ShloMosaic.PureOps.Ideal

noncomputable section

namespace Cert.ReferenceIdeal.RefValue

open Cert.ReferenceIdeal Cert.ReferenceIdeal.ValueP
open Idealize.ShloMosaic Idealize.ShloMosaic.TcCoe Idealize.SL.Sem Idealize.ShloMosaic.StableHlo
open Cert.ReferenceIdeal.Facts₀

variable {F : FTy → Type} [FloatOps F]

/-- Two index vectors laid end to end: E entries followed by n entries (the reference's own records). -/
def cat (a : (⟨S1600000, .i32⟩ : BufTy).Contents (Elt F)) (b : (⟨S100000, .i32⟩ : BufTy).Contents (Elt F)) : (⟨S1700000, .i32⟩ : BufTy).Contents (Elt F) :=
  concatenate S1700000 0 [⟨S1600000, a⟩, ⟨S100000, b⟩] concatenates_S1600000_S100000_S1700000_d0

/-- The program's spelling of that concatenation, as a function of its two pieces, is `cat`. -/
theorem cat_fun : ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) = cat (F := F) := rfl

set_option maxRecDepth 16384 in
set_option maxHeartbeats 200000000 in
/-- The fold of the reference's 119 operations from the launch contents, read at the result buffer, is the network
    of the six arguments — at any float instance: only the operations' names are compared, never their values. -/
theorem value (m : (ℓ : Loc nD τ sig) → Buf (Elt F) ℓ) (c : Dev nD) :
    after (ops (F := F)) (launchContents m c) (Proc.devRef .tc main_v90)
      = Cert.KernelIdeal.Spec.out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  dsimp only [ops]
  simp only [cat_fun]
  after_results_simp
  rfl

end Cert.ReferenceIdeal.RefValue

end
-- ==== Proof.lean ====
/-
  A two-layer graph-convolution network: a Pallas kernel program against its jnp reference, over the extended reals.

  Both programs compute, from node features x [100000, 500], an edge list [2, 1600000] and the weights and biases
  of two layers,
      out = A · relu(A · (x · W1) + b1) · W2 + b2,
  where A is the normalised adjacency with self-loops, applied as "gather the source rows, scale each edge by
  dinv[src] · dinv[dst], scatter-add into the target rows".  The kernel program runs the two dense products
  x · W1 and h · W2 in Pallas pipelines over blocks of 2000 and of 5000 rows, with operands rounded to bf16 and an f32
  accumulator started at zero; the reference runs each as one host product.  Everything else — the index vectors,
  the degrees, the normalisation, the gathers, the scatter-adds, the biases, the relu — is the same sequence of host
  operations in both programs (the reference recomputes the normalisation for the second layer; the kernel program
  reuses the first).

  Over the extended reals a rounding is the identity, and a row block of a matrix product is the matrix product of the
  row block, entry by entry the same sum over the contracted axis.  So each pipeline leaves the whole product in its
  output array (Region0, Region1, over LibDotRows), the host operations around them are read as the functions of
  Spec (Glue), and the kernel program's result is `Spec.out` of the arguments; the reference's 119 operations fold to
  the same `Spec.out` (RefValue).  No arithmetic law beyond `0 + s = s` is used, so the finiteness of the inputs is
  never needed.  The idealisation pass rewrote nothing, so `preserves` is trivial.
-/
import proofs.«158897_j73323681677457_2_alg».proof.Defs
import proofs.«158897_j73323681677457_2_alg».proof.Proof.Gen.Kernel
import proofs.«158897_j73323681677457_2_alg».proof.Proof.Gen.Kernel.Skeleton
import proofs.«158897_j73323681677457_2_alg».proof.Proof.Gen.Kernel.Launch
import proofs.«158897_j73323681677457_2_alg».proof.Proof.Gen.Kernel.Points
import proofs.«158897_j73323681677457_2_alg».proof.Proof.Gen.Kernel.Frame
import proofs.«158897_j73323681677457_2_alg».proof.Proof.Gen.KernelIdeal
import proofs.«158897_j73323681677457_2_alg».proof.Proof.Gen.KernelIdeal.Skeleton
import proofs.«158897_j73323681677457_2_alg».proof.Proof.Gen.KernelIdeal.Launch
import proofs.«158897_j73323681677457_2_alg».proof.Proof.Gen.KernelIdeal.Points
import proofs.«158897_j73323681677457_2_alg».proof.Proof.Gen.KernelIdeal.Frame
import proofs.«158897_j73323681677457_2_alg».proof.Proof.Gen.ReferenceIdeal
import proofs.«158897_j73323681677457_2_alg».proof.Proof.Gen.Pre_finite_inputs
import proofs.«158897_j73323681677457_2_alg».proof.Proof.KernelRun
import proofs.«158897_j73323681677457_2_alg».proof.Proof.Glue
import proofs.«158897_j73323681677457_2_alg».proof.Proof.RefRun
import proofs.«158897_j73323681677457_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation pass rewrote no operation. -/
theorem preserves : Cert.preserves_Kernel_KernelIdeal := trivial

/-- From memories that agree on the six arguments both idealized programs end with the network `Spec.out` of those
    arguments in their result buffers. -/
theorem algebraic : Cert.algebraic_KernelIdeal_ReferenceIdeal := by
  intro m ρ m' ρ' _ hagree
  refine ⟨fun c => Cert.KernelIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Glue.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.value m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
